-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x8192 : Shape := ⟨2, ![1, 8192]⟩
abbrev S8192x8192 : Shape := ⟨2, ![8192, 8192]⟩
abbrev S8192 : Shape := ⟨1, ![8192]⟩
abbrev S_ : Shape := ⟨0, ![]⟩

class Facts : Prop where
  bcast_S_S1x8192 : S_.BroadcastsInDim S1x8192 (![] : Fin 0 → Fin S1x8192.rank)
  reducesTo_S1x8192_S_d0_1 : S1x8192.ReducesTo [0, 1] S_
  h_S_ : 0 < S_.numel
  bcast_S_S8192x8192 : S_.BroadcastsInDim S8192x8192 (![] : Fin 0 → Fin S8192x8192.rank)
  reducesTo_S8192x8192_S_d0_1 : S8192x8192.ReducesTo [0, 1] S_
  bcast_S_S8192 : S_.BroadcastsInDim S8192 (![] : Fin 0 → Fin S8192.rank)
  reducesTo_S8192_S_d0 : S8192.ReducesTo [0] S_

variable [Facts]

def fn {F : FTy → Type} [FloatOps F] (main_arg0 : FVec F S1x8192 .f32) (main_arg1 : FVec F S8192x8192 .f32) (main_arg2 : FVec F S8192 .f32) : IVec S_ 1 :=
  let main_v0 : FVec F S1x8192 .f32 := Host.absf main_arg0
  let main_cst : FVec F S_ .f32 := constant S_ .f32 0x7F800000#32
  let main_v1 : FVec F S1x8192 .f32 := broadcastInDim S1x8192 ![] bcast_S_S1x8192 main_cst
  let main_v2 : IVec S1x8192 1 := cmpf .olt main_v0 main_v1
  let main_c : IVec S_ 1 := constantI S_ 1 1#1
  let main_v3 : IVec S_ 1 := (fun x v => Host.reduce IntOp.andi x v reducesTo_S1x8192_S_d0_1 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  let main_v9 : FVec F S8192 .f32 := Host.absf main_arg2
  let main_cst_2 : FVec F S_ .f32 := constant S_ .f32 0x7F800000#32
  let main_v10 : FVec F S8192 .f32 := broadcastInDim S8192 ![] bcast_S_S8192 main_cst_2
  let main_v11 : IVec S8192 1 := cmpf .olt main_v9 main_v10
  let main_c_3 : IVec S_ 1 := constantI S_ 1 1#1
  let main_v12 : IVec S_ 1 := (fun x v => Host.reduce IntOp.andi x v reducesTo_S8192_S_d0 h_S_) main_v11 main_c_3
  let main_v13 : IVec S_ 1 := andi main_v8 main_v12
  main_v13
-- ==== Kernel.lean ====
abbrev S1x8192 : Shape := ⟨2, ![1, 8192]⟩
abbrev S8192x8192 : Shape := ⟨2, ![8192, 8192]⟩
abbrev S8192 : Shape := ⟨1, ![8192]⟩
abbrev S1x4096 : Shape := ⟨2, ![1, 4096]⟩
abbrev S4096x1024 : Shape := ⟨2, ![4096, 1024]⟩
abbrev S1x1024 : Shape := ⟨2, ![1, 1024]⟩
abbrev S1x2048 : Shape := ⟨2, ![1, 2048]⟩
abbrev S2048x1024 : Shape := ⟨2, ![2048, 1024]⟩

abbrev nBuf : Space → Nat
  | .hbm => 5
  | .vmem => 9
  | .smem => 0
  | _ => 0

abbrev bufTy : (tb : Table) → Fin (tcTables nBuf tb) → BufTy
  | .hbm, ⟨0, _⟩ => ⟨S1x8192, .f32⟩
  | .hbm, ⟨1, _⟩ => ⟨S8192x8192, .f32⟩
  | .hbm, ⟨2, _⟩ => ⟨S8192, .f32⟩
  | .hbm, ⟨3, _⟩ => ⟨S1x8192, .f32⟩
  | .hbm, ⟨4, _⟩ => ⟨S1x8192, .f32⟩
  | .local _ .vmem, ⟨0, _⟩ => ⟨S1x4096, .f32⟩
  | .local _ .vmem, ⟨1, _⟩ => ⟨S1x4096, .f32⟩
  | .local _ .vmem, ⟨2, _⟩ => ⟨S4096x1024, .f32⟩
  | .local _ .vmem, ⟨3, _⟩ => ⟨S4096x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | _, _ => ⟨S1x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 2], ![false, false]⟩

def k0_cond2 (i : grid0.Coords) : BitVec 1 :=
  let arg1 : BitVec 32 := BitVec.ofNat 32 (i 1).val
  let c1_i32 : BitVec 32 := 1#32
  let v23 : BitVec 1 := Scalar.cmpi .eq arg1 c1_i32
  let v24 : BitVec 32 := Scalar.extui v23
  let c0_i32_16 : BitVec 32 := 0#32
  let v25 : BitVec 1 := Scalar.cmpi .ne v24 c0_i32_16
  v25

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  shapeCasts_S8192_S1x8192 : S8192.ShapeCasts S1x8192
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  inb_S1x4096_S1x2048_0_0 : ∀ a, (![0, 0] : Fin 2 → Nat) a + S1x2048.size a ≤ S1x4096.size a
  h_S1x2048 : 0 < S1x2048.numel
  bitsLt_bf16_f32 : FTy.bits .bf16 < FTy.bits .f32
  inb_S4096x1024_S2048x1024_0_0 : ∀ a, (![0, 0] : Fin 2 → Nat) a + S2048x1024.size a ≤ S4096x1024.size a
  h_S2048x1024 : 0 < S2048x1024.numel
  inb_S1x4096_S1x2048_0_2048 : ∀ a, (![0, 2048] : Fin 2 → Nat) a + S1x2048.size a ≤ S1x4096.size a
  inb_S4096x1024_S2048x1024_2048_0 : ∀ a, (![2048, 0] : Fin 2 → Nat) a + S2048x1024.size a ≤ S4096x1024.size a
  dot_S1x2048_S2048x1024_S1x1024_1_0_0_1_n_n_wf : DotDims.WF S1x2048 S2048x1024 S1x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4096.size a ≤ S1x8192.size a
  hwx0_0 : ∀ i : grid0.Coords, EltTy.bits .f32 = 32 ∨ (Rect.block (s := S1x8192) S1x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x1024.size a ≤ S8192x8192.size a
  hwx0_1 : ∀ i : grid0.Coords, EltTy.bits .f32 = 32 ∨ (Rect.block (s := S8192x8192) S4096x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x8192.size a
  hwx0_2 : ∀ i : grid0.Coords, EltTy.bits .f32 = 32 ∨ (Rect.block (s := S1x8192) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x8192.size a
  hwx0_3 : ∀ i : grid0.Coords, EltTy.bits .f32 = 32 ∨ (Rect.block (s := S1x8192) S1x1024.size (cc0_transform_3 i) (hinb0_3 i)).WholeWords (EltTy.packing .f32)

variable [Facts₀]

def dot_S1x2048_S2048x1024_S1x1024_1_0_0_1_n_n : DotDims S1x2048 S2048x1024 S1x1024 where
  lhsContracting := [1]
  rhsContracting := [0]
  lhsNonContracting := [0]
  rhsNonContracting := [1]
  lhsBatch := []
  rhsBatch := []
  wf := dot_S1x2048_S2048x1024_S1x1024_1_0_0_1_n_n_wf

abbrev win0_0 : Pipeline.Window sig grid0 :=
  Pipeline.Window.ofSpec (Memref.whole main_arg0) S1x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4096x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S1x8192 : Shape := ⟨2, ![1, 8192]⟩
abbrev S8192x8192 : Shape := ⟨2, ![8192, 8192]⟩
abbrev S8192 : Shape := ⟨1, ![8192]⟩

abbrev nBuf : Space → Nat
  | .hbm => 6
  | .vmem => 0
  | .smem => 0
  | _ => 0

abbrev bufTy : (tb : Table) → Fin (tcTables nBuf tb) → BufTy
  | .hbm, ⟨0, _⟩ => ⟨S1x8192, .f32⟩
  | .hbm, ⟨1, _⟩ => ⟨S8192x8192, .f32⟩
  | .hbm, ⟨2, _⟩ => ⟨S8192, .f32⟩
  | .hbm, ⟨3, _⟩ => ⟨S1x8192, .f32⟩
  | .hbm, ⟨4, _⟩ => ⟨S1x8192, .f32⟩
  | .hbm, ⟨5, _⟩ => ⟨S1x8192, .f32⟩
  | _, _ => ⟨S1x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]

class Facts₀ : Prop where
  bcast_S8192_S1x8192_1 : S8192.BroadcastsInDim S1x8192 (![1] : Fin 1 → Fin S1x8192.rank)
  dot_S1x8192_S8192x8192_S1x8192_1_0_0_1_n_n_wf : DotDims.WF S1x8192 S8192x8192 S1x8192 [1] [0] [0] [1] [] []

variable [Facts₀]

def dot_S1x8192_S8192x8192_S1x8192_1_0_0_1_n_n : DotDims S1x8192 S8192x8192 S1x8192 where
  lhsContracting := [1]
  rhsContracting := [0]
  lhsNonContracting := [0]
  rhsNonContracting := [1]
  lhsBatch := []
  rhsBatch := []
  wf := dot_S1x8192_S8192x8192_S1x8192_1_0_0_1_n_n_wf

class Facts : Prop extends Facts₀ where

variable [Facts]
-- ==== Proof.LibCoveredLoad.lean ====
/-
  A general fact about a buffer written by a list of stores (latest first) and then loaded.

  If the LATEST store wrote the whole buffer (its rectangle starts at the origin and has the buffer's own
  extents), then a load of the whole buffer reads exactly that store's payload, whatever the earlier
  stores in the list were: every index lies in the latest store's rectangle, so the earlier ones are
  never consulted.  (The library states this for a list of exactly one store; a running total that is
  stored whole several times in one body needs it with a tail.)
-/
import Idealize.ShloMosaic.Lib.Pipeline.Value

noncomputable section

namespace Cert.Lib

open Idealize.ShloMosaic

/-- A whole-buffer load of what a list of stores left, the latest of which wrote the whole buffer, is the
    latest store's payload. -/
theorem readCov_latest_whole {Val : EltTy → Type} [∀ e, Nonempty (Val e)] {S : Shape} {e : EltTy}
    {sig : RefSig} {κ : Kind} {sp : Space} (v : View sig κ sp S e) {off : Fin S.rank → Nat}
    (h : off = fun _ => 0) (inb : ∀ a, off a + S.size a ≤ S.size a) (w : S.Idx → Val e)
    (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.mem_cons.mpr (Or.inl rfl), by
    show y ∈ (Rect.whole S).set; rw [Rect.set_whole]; exact Finset.mem_univ y⟩),
    View.canon_cons_unit_zero rfl, View.ld_unit_zero rfl]

end Cert.Lib

end
-- ==== Proof.DensePieces.lean ====
/-
  What one grid point's body leaves behind, as pure functions of the blocks it is handed.

  The body keeps a running total (a [1,1024] row) and adds to it, one after the other, two partial
  products of its blocks: rows 0..2047 of the x block against rows 0..2047 of the W block, then rows
  2048..4095 against rows 2048..4095 (`twoRuns`).  At a point with k = 0 the total is first set to zero, so
  the point leaves `twoRuns` of zero; at a point with k = 1 it continues from what the point before
  left, and then stores total + bias block as the output block.

  Each statement reads the stores the body's run found (latest first) back as values: every store writes
  the whole [1,1024] buffer, so the latest one decides the contents, and every load of the running
  total reads the store just before it.
-/
import proofs.«134226_j68332929679499_2_alg».proof.Proof.Gen.KernelIdeal.Frame
import proofs.«134226_j68332929679499_2_alg».proof.Proof.LibCoveredLoad
import Idealize.ShloMosaic.Lib.Pipeline.Value
import Idealize.ShloMosaic.Lib.Tactic

noncomputable section

open Idealize.ShloMosaic Idealize.ShloMosaic.TcCoe Idealize.SL.Sem

namespace Cert.Dense.Body

open Cert.KernelIdeal Cert.KernelIdeal.Gen

variable {F : FTy → Type} [FloatOps F]

theorem origin : (![0, 0] : Fin 2 → Nat) = fun _ => 0 := funext fun a => by fin_cases a <;> rfl

/-- The running total after the body's two partial products, from the total `acc` before them: first the
    product of the low halves of the blocks (rows 0..2047), then of the high halves (rows 2048..4095). -/
def twoRuns (x0 : Vec F S1x4096 .f32) (x1 : Vec F S4096x1024 .f32) (acc : Vec F S1x1024 .f32) : Vec F S1x1024 .f32 :=
  k0_pay3
    (View.ld x0 (Rect.unit (s := S1x4096) ![0, 2048] S1x2048.size inb_S1x4096_S1x2048_0_2048))
    (View.ld x1 (Rect.unit (s := S4096x1024) ![2048, 0] S2048x1024.size inb_S4096x1024_S2048x1024_2048_0))
    (k0_pay2
      (View.ld x0 (Rect.unit (s := S1x4096) ![0, 0] S1x2048.size inb_S1x4096_S1x2048_0_0))
      (View.ld x1 (Rect.unit (s := S4096x1024) ![0, 0] S2048x1024.size inb_S4096x1024_S2048x1024_0_0))
      acc)

/-- A point with k = 0 leaves in the running total the two partial products added to zero. -/
theorem total_first (c : Dev nD) (i : grid0.Coords) (arg2 : Memref sig .tc .vmem S1x4096 .f32) (harg2 : arg2.IsWhole) (arg3 : Memref sig .tc .vmem S4096x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (hc0 : cond0_0 i) (hc1 : ¬cond0_1 i)
    (x0 : Vec F S1x4096 .f32) (x1 : Vec F S4096x1024 .f32) (x2 : Vec F S1x1024 .f32) :
    sout0_A_0 c i arg2 harg2 arg3 harg3 arg4 harg4 arg5 harg5 arg6 harg6 hc0 hc1 x0 x1 x2 = twoRuns x0 x1 k0_pay1 := by
  unfold sout0_A_0
  rw [View.read_writes_eq_canon _ _ _ (scover0_A_0 c i arg2 harg2 arg3 harg3 arg4 harg4 arg5 harg5 arg6 harg6 hc0 hc1 x0 x1 x2)]
  unfold kernelRun0_A
  dsimp only
  sl_unfold_words
  rw [View.canon_cons_unit_zero (S := S1x1024) origin, Cert.Lib.readCov_latest_whole (S := S1x1024) _ origin,
    View.readCov_unit_zero (S := S1x1024) _ origin]
  simp only [View.readAt_eq_ld, harg2.read_unread, harg3.read_unread]
  rfl

/-- A point with k = 1 leaves in the running total the two partial products added to what the point before
    left there (`acc`). -/
theorem total_next (c : Dev nD) (i : grid0.Coords) (arg2 : Memref sig .tc .vmem S1x4096 .f32) (harg2 : arg2.IsWhole) (arg3 : Memref sig .tc .vmem S4096x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (hc0 : ¬cond0_0 i) (hc1 : cond0_1 i)
    (x0 : Vec F S1x4096 .f32) (x1 : Vec F S4096x1024 .f32) (x2 : Vec F S1x1024 .f32) (acc : Vec F S1x1024 .f32) :
    sout0_B_0 c i arg2 harg2 arg3 harg3 arg4 harg4 arg5 harg5 arg6 harg6 hc0 hc1 x0 x1 x2 acc = twoRuns x0 x1 acc := by
  unfold sout0_B_0
  rw [View.read_writes_eq_canon _ _ _ (scover0_B_0 c i arg2 harg2 arg3 harg3 arg4 harg4 arg5 harg5 arg6 harg6 hc0 hc1 x0 x1 x2 acc)]
  unfold kernelRun0_B
  dsimp only
  sl_unfold_words
  rw [View.canon_cons_unit_zero (S := S1x1024) origin, View.readCov_unit_zero (S := S1x1024) _ origin]
  simp only [View.readAt_eq_ld, harg2.read_unread, harg3.read_unread, harg6.read_unread, View.ld_unit_zero (S := S1x1024) origin]
  rfl

/-- ... and stores, as the output block, that total plus the bias block `x2`. -/
theorem out_last (c : Dev nD) (i : grid0.Coords) (arg2 : Memref sig .tc .vmem S1x4096 .f32) (harg2 : arg2.IsWhole) (arg3 : Memref sig .tc .vmem S4096x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (hc0 : ¬cond0_0 i) (hc1 : cond0_1 i)
    (x0 : Vec F S1x4096 .f32) (x1 : Vec F S4096x1024 .f32) (x2 : Vec F S1x1024 .f32) (acc : Vec F S1x1024 .f32) :
    out0_B_3 c i arg2 harg2 arg3 harg3 arg4 harg4 arg5 harg5 arg6 harg6 hc0 hc1 x0 x1 x2 acc = k0_pay4 (twoRuns x0 x1 acc) x2 := by
  unfold out0_B_3
  rw [View.read_writes_eq_canon _ _ _ (cover0_B_3 c i arg2 harg2 arg3 harg3 arg4 harg4 arg5 harg5 arg6 harg6 hc0 hc1 x0 x1 x2 acc)]
  unfold kernelRun0_B
  dsimp only
  sl_unfold_words
  rw [View.canon_unit_zero (S := S1x1024) origin, Cert.Lib.readCov_latest_whole (S := S1x1024) _ origin,
    View.readCov_unit_zero (S := S1x1024) _ origin]
  simp only [View.readAt_eq_ld, harg2.read_unread, harg3.read_unread, harg4.read_unread, harg6.read_unread,
    View.ld_unit_zero (S := S1x1024) origin]
  rfl

end Cert.Dense.Body

end
-- ==== Proof.DenseEntry.lean ====
/-
  The body's arithmetic at ONE entry, over the extended reals.

  Over the extended reals a change of float format is the identity and a matrix product into a zero
  accumulator is the plain sum of products.  So at entry (a, q) of the [1,1024] running total:
    * one partial product adds  the sum over the 2048 rows r of  xs[a, r] * ws[r, q];
    * the body's two partial products (`twoRuns`) add, to the total before them, the sum over rows
      0..2047 of the blocks and then the sum over rows 2048..4095;
    * the zero fill is 0, and the last store adds the bias entry.
-/
import proofs.«134226_j68332929679499_2_alg».proof.Proof.DensePieces
import Idealize.ShloMosaic.Lib.ValueIdx
import Idealize.ShloMosaic.PureOps.Ideal.Laws

noncomputable section

open scoped BigOperators
open Idealize.ShloMosaic Idealize.ShloMosaic.TcCoe Idealize.SL.Sem Idealize.ShloMosaic.ValueIdx

namespace Cert.Dense.Body

open Cert.KernelIdeal Cert.KernelIdeal.Gen

/-! ## The product's operand indices: the row operand is read at (a, r), the block operand at (r, q) -/

theorem lhs_row (i : S1x1024.Idx) (k : dot_S1x2048_S2048x1024_S1x1024_1_0_0_1_n_n.contr.Idx) : (dot_S1x2048_S2048x1024_S1x1024_1_0_0_1_n_n.lhsIdx i k 0).val = (i 0).val := by
  unfold DotDims.lhsIdx
  rw [dif_neg (show ¬(0 : Fin S1x2048.rank) ∈ dot_S1x2048_S2048x1024_S1x1024_1_0_0_1_n_n.lhsBatch by decide), dif_pos (show (0 : Fin S1x2048.rank) ∈ dot_S1x2048_S2048x1024_S1x1024_1_0_0_1_n_n.lhsNonContracting by decide)]
  rfl
theorem lhs_contr (i : S1x1024.Idx) (k : dot_S1x2048_S2048x1024_S1x1024_1_0_0_1_n_n.contr.Idx) : (dot_S1x2048_S2048x1024_S1x1024_1_0_0_1_n_n.lhsIdx i k 1).val = (k ⟨0, by decide⟩).val :=
  dot_S1x2048_S2048x1024_S1x1024_1_0_0_1_n_n.lhsIdx_val_of_single rfl i k
theorem rhs_contr (i : S1x1024.Idx) (k : dot_S1x2048_S2048x1024_S1x1024_1_0_0_1_n_n.contr.Idx) : (dot_S1x2048_S2048x1024_S1x1024_1_0_0_1_n_n.rhsIdx i k 0).val = (k ⟨0, by decide⟩).val :=
  dot_S1x2048_S2048x1024_S1x1024_1_0_0_1_n_n.rhsIdx_val_of_single rfl i k
theorem rhs_col (i : S1x1024.Idx) (k : dot_S1x2048_S2048x1024_S1x1024_1_0_0_1_n_n.contr.Idx) : (dot_S1x2048_S2048x1024_S1x1024_1_0_0_1_n_n.rhsIdx i k 1).val = (i 1).val := by
  unfold DotDims.rhsIdx
  rw [dif_neg (show ¬(1 : Fin S2048x1024.rank) ∈ dot_S1x2048_S2048x1024_S1x1024_1_0_0_1_n_n.rhsBatch by decide), dif_pos (show (1 : Fin S2048x1024.rank) ∈ dot_S1x2048_S2048x1024_S1x1024_1_0_0_1_n_n.rhsNonContracting by decide)]
  rfl

/-- One partial product into zero, at entry (a, q): the sum over the 2048 contracted rows. -/
theorem product_apply (xs : FVec Ideal S1x2048 .bf16) (ws : FVec Ideal S2048x1024 .bf16) (a : Fin 1) (q : Fin 1024) :
    matmul (F := Ideal) dot_S1x2048_S2048x1024_S1x1024_1_0_0_1_n_n none xs ws (constant (F := Ideal) S1x1024 .f32 0x00000000#32) (ix2 a q)
      = ∑ r : Fin 2048, xs (ix2 a r) * ws (ix2 r q) := by
  refine (Ideal.matmul_constant_zero_apply dot_S1x2048_S2048x1024_S1x1024_1_0_0_1_n_n none xs ws (ix2 a q)).trans ?_
  rw [← Equiv.sum_comp (contrEquiv1 dot_S1x2048_S2048x1024_S1x1024_1_0_0_1_n_n 2048 rfl rfl).symm]
  refine Finset.sum_congr rfl fun r _ => ?_
  have hr := contrEquiv1_symm_val dot_S1x2048_S2048x1024_S1x1024_1_0_0_1_n_n 2048 rfl rfl r
  have el : dot_S1x2048_S2048x1024_S1x1024_1_0_0_1_n_n.lhsIdx (ix2 a q) ((contrEquiv1 dot_S1x2048_S2048x1024_S1x1024_1_0_0_1_n_n 2048 rfl rfl).symm r) = ix2 a r := funext fun d => Fin.ext (by
    match d with
    | ⟨0, _⟩ => exact lhs_row _ _
    | ⟨1, _⟩ => exact (lhs_contr _ _).trans hr)
  have er : dot_S1x2048_S2048x1024_S1x1024_1_0_0_1_n_n.rhsIdx (ix2 a q) ((contrEquiv1 dot_S1x2048_S2048x1024_S1x1024_1_0_0_1_n_n 2048 rfl rfl).symm r) = ix2 r q := funext fun d => Fin.ext (by
    match d with
    | ⟨0, _⟩ => exact (rhs_contr _ _).trans hr
    | ⟨1, _⟩ => exact rhs_col _ _)
  rw [el, er]

/-! ## The payloads at an entry -/

/-- The zero fill. -/
theorem zero_apply (a : Fin 1) (q : Fin 1024) : k0_pay1 (F := Ideal) (ix2 a q) = 0 := by
  unfold k0_pay1
  simp only [shapeCast_self]
  exact Ideal.ofBits_zero_f32

/-- The first partial product of a point: the total `v7` plus the sum over the run's rows. -/
theorem run_lo_apply (v3 : Vec Ideal S1x2048 .f32) (v5 : Vec Ideal S2048x1024 .f32) (v7 : Vec Ideal S1x1024 .f32) (a : Fin 1) (q : Fin 1024) :
    k0_pay2 (F := Ideal) v3 v5 v7 (ix2 a q) = v7 (ix2 a q) + ∑ r : Fin 2048, v3 (ix2 a r) * v5 (ix2 r q) := by
  unfold k0_pay2
  simp only [shapeCast_self]
  exact congrArg (v7 (ix2 a q) + ·) (product_apply (truncf .bf16 v3 bitsLt_bf16_f32) (truncf .bf16 v5 bitsLt_bf16_f32) a q)

/-- The second partial product of a point: the same over its own rows. -/
theorem run_hi_apply (v13 : Vec Ideal S1x2048 .f32) (v15 : Vec Ideal S2048x1024 .f32) (v17 : Vec Ideal S1x1024 .f32) (a : Fin 1) (q : Fin 1024) :
    k0_pay3 (F := Ideal) v13 v15 v17 (ix2 a q) = v17 (ix2 a q) + ∑ r : Fin 2048, v13 (ix2 a r) * v15 (ix2 r q) := by
  unfold k0_pay3
  simp only [shapeCast_self]
  exact congrArg (v17 (ix2 a q) + ·) (product_apply (truncf .bf16 v13 bitsLt_bf16_f32) (truncf .bf16 v15 bitsLt_bf16_f32) a q)

/-- The last store: total plus bias. -/
theorem bias_apply (v26 v27 : Vec Ideal S1x1024 .f32) (a : Fin 1) (q : Fin 1024) :
    k0_pay4 (F := Ideal) v26 v27 (ix2 a q) = v26 (ix2 a q) + v27 (ix2 a q) := by
  unfold k0_pay4
  simp only [shapeCast_self]
  rfl

/-! ## A point's two partial products at an entry -/

/-- Row `r` of the low half of a 4096-row block, and of its high half. -/
def lowRow (r : Fin 2048) : Fin 4096 := ⟨r.val, by have := r.isLt; omega⟩
def highRow (r : Fin 2048) : Fin 4096 := ⟨2048 + r.val, by have := r.isLt; omega⟩

theorem lowRow_val (r : Fin 2048) : (lowRow r).val = r.val := rfl
theorem highRow_val (r : Fin 2048) : (highRow r).val = 2048 + r.val := rfl

/-- The two halves of the blocks, as the body's loads read them. -/
theorem x_lo (x0 : Vec Ideal S1x4096 .f32) (a : Fin 1) (r : Fin 2048) :
    View.ld x0 (Rect.unit (s := S1x4096) ![0, 0] S1x2048.size inb_S1x4096_S1x2048_0_0) (ix2 a r) = x0 (ix2 a (lowRow r)) :=
  congrArg x0 (funext fun d => Fin.ext (by
    match d with
    | ⟨0, _⟩ => show 0 + 1 * a.val = a.val; omega
    | ⟨1, _⟩ => show 0 + 1 * r.val = r.val; omega))
theorem x_hi (x0 : Vec Ideal S1x4096 .f32) (a : Fin 1) (r : Fin 2048) :
    View.ld x0 (Rect.unit (s := S1x4096) ![0, 2048] S1x2048.size inb_S1x4096_S1x2048_0_2048) (ix2 a r) = x0 (ix2 a (highRow r)) :=
  congrArg x0 (funext fun d => Fin.ext (by
    match d with
    | ⟨0, _⟩ => show 0 + 1 * a.val = a.val; omega
    | ⟨1, _⟩ => show 2048 + 1 * r.val = 2048 + r.val; omega))
theorem w_lo (x1 : Vec Ideal S4096x1024 .f32) (r : Fin 2048) (q : Fin 1024) :
    View.ld x1 (Rect.unit (s := S4096x1024) ![0, 0] S2048x1024.size inb_S4096x1024_S2048x1024_0_0) (ix2 r q) = x1 (ix2 (lowRow r) q) :=
  congrArg x1 (funext fun d => Fin.ext (by
    match d with
    | ⟨0, _⟩ => show 0 + 1 * r.val = r.val; omega
    | ⟨1, _⟩ => show 0 + 1 * q.val = q.val; omega))
theorem w_hi (x1 : Vec Ideal S4096x1024 .f32) (r : Fin 2048) (q : Fin 1024) :
    View.ld x1 (Rect.unit (s := S4096x1024) ![2048, 0] S2048x1024.size inb_S4096x1024_S2048x1024_2048_0) (ix2 r q) = x1 (ix2 (highRow r) q) :=
  congrArg x1 (funext fun d => Fin.ext (by
    match d with
    | ⟨0, _⟩ => show 2048 + 1 * r.val = 2048 + r.val; omega
    | ⟨1, _⟩ => show 0 + 1 * q.val = q.val; omega))

/-- A point's two partial products at entry (a, q): to the total before them, the sum over the low rows
    of the blocks, then the sum over the high rows. -/
theorem twoRuns_apply (x0 : Vec Ideal S1x4096 .f32) (x1 : Vec Ideal S4096x1024 .f32) (acc : Vec Ideal S1x1024 .f32) (a : Fin 1) (q : Fin 1024) :
    twoRuns (F := Ideal) x0 x1 acc (ix2 a q)
      = (acc (ix2 a q) + ∑ r : Fin 2048, x0 (ix2 a (lowRow r)) * x1 (ix2 (lowRow r) q))
          + ∑ r : Fin 2048, x0 (ix2 a (highRow r)) * x1 (ix2 (highRow r) q) := by
  unfold twoRuns
  rw [run_hi_apply, run_lo_apply]
  refine congrArg₂ (· + ·) (congrArg (acc (ix2 a q) + ·) (Finset.sum_congr rfl fun r _ => ?_)) (Finset.sum_congr rfl fun r _ => ?_)
  · exact congrArg₂ (· * ·) (x_lo x0 a r) (w_lo x1 r q)
  · exact congrArg₂ (· * ·) (x_hi x0 a r) (w_hi x1 r q)

end Cert.Dense.Body

end
-- ==== Proof.DenseSpec.lean ====
/-
  The dense layer as ONE function of its argument arrays, and the one law of sums by which its two
  computations differ.

  Entry (0, n) of the result is  (the sum over all 8192 rows r of  x[0, r] * W[r, n])  +  b[n].

  The blocked computation walks the rows in four runs of 2048 consecutive rows, adding each run's
  partial sum to a running total that starts at zero.  The law `sum_runs` says that the four partial
  sums added in order are the whole sum.  It uses only that addition is associative and commutative,
  so it holds on the extended reals with no finiteness assumption: no product is moved across a sum
  and nothing is cancelled.
-/
import Idealize.ShloMosaic.PureOps.Ideal
import Idealize.ShloMosaic.Lib.ValueIdx

noncomputable section

open scoped BigOperators

namespace Cert.Dense

open Idealize.ShloMosaic Idealize.ShloMosaic.ValueIdx

/-- Row `2048 * c + r` of the contracted axis: row `r` of run `c`. -/
def runRow (c : Fin 4) (r : Fin 2048) : Fin 8192 :=
  ⟨2048 * c.val + r.val, by have := c.isLt; have := r.isLt; omega⟩

theorem runRow_val (c : Fin 4) (r : Fin 2048) : (runRow c r).val = 2048 * c.val + r.val := rfl

/-- A sum over the 8192 rows is the sum of its four runs of 2048 rows, added first to last: every row is
    row `r` of exactly one run `c` (the bijection `(c, r) ↦ 2048 * c + r`). -/
theorem sum_runs {M : Type*} [AddCommMonoid M] (f : Fin 8192 → M) :
    ∑ k, f k = ∑ r, f (runRow 0 r) + ∑ r, f (runRow 1 r) + ∑ r, f (runRow 2 r) + ∑ r, f (runRow 3 r) := by
  have e : ∀ p : Fin 4 × Fin 2048, (finProdFinEquiv p : Fin 8192) = runRow p.1 p.2 := fun p =>
    Fin.ext (by show p.2.val + 2048 * p.1.val = 2048 * p.1.val + p.2.val; omega)
  rw [← Equiv.sum_comp (finProdFinEquiv : Fin 4 × Fin 2048 ≃ Fin 8192) f, Fintype.sum_prod_type, Fin.sum_univ_four]
  simp only [e]

/-- The dense layer: entry `i = (0, n)` of `x W + b`. -/
def dense (x : (⟨2, ![1, 8192]⟩ : Shape).Idx → EReal) (W : (⟨2, ![8192, 8192]⟩ : Shape).Idx → EReal)
    (b : (⟨1, ![8192]⟩ : Shape).Idx → EReal) : (⟨2, ![1, 8192]⟩ : Shape).Idx → EReal :=
  fun i => (∑ k : Fin 8192, x (ix2 (i 0) k) * W (ix2 k (i 1))) + b (ix1 (i 1))

/-- The same entry as the blocked computation reaches it: a running total from zero over the four runs of
    rows, then the bias. -/
theorem dense_runs (x : (⟨2, ![1, 8192]⟩ : Shape).Idx → EReal) (W : (⟨2, ![8192, 8192]⟩ : Shape).Idx → EReal)
    (b : (⟨1, ![8192]⟩ : Shape).Idx → EReal) (i : (⟨2, ![1, 8192]⟩ : Shape).Idx) :
    dense x W b i
      = ((((0 + ∑ r : Fin 2048, x (ix2 (i 0) (runRow 0 r)) * W (ix2 (runRow 0 r) (i 1)))
            + ∑ r : Fin 2048, x (ix2 (i 0) (runRow 1 r)) * W (ix2 (runRow 1 r) (i 1)))
            + ∑ r : Fin 2048, x (ix2 (i 0) (runRow 2 r)) * W (ix2 (runRow 2 r) (i 1)))
            + ∑ r : Fin 2048, x (ix2 (i 0) (runRow 3 r)) * W (ix2 (runRow 3 r) (i 1)))
          + b (ix1 (i 1)) := by
  unfold dense
  rw [sum_runs (fun k => x (ix2 (i 0) k) * W (ix2 k (i 1))), zero_add]

end Cert.Dense

end
-- ==== Proof.DenseColumn.lean ====
/-
  One entry of the result, from the four half-blocks that feed it.

  Output column n = 1024 j + q gets its value at the second of the two points of column block j.  That
  point continues the running total the first point left, so together the two points add to zero, in
  order, the sums over rows 0..2047, 2048..4095, 4096..6143 and 6144..8191 of x[a, r] * W[r, n], and
  then the bias entry b[n].  That is the dense layer's entry written run by run (`dense_runs`): the only
  law used is the regrouping of one sum.
-/
import proofs.«134226_j68332929679499_2_alg».proof.Proof.DenseEntry
import proofs.«134226_j68332929679499_2_alg».proof.Proof.DenseSpec

noncomputable section

open scoped BigOperators
open Idealize.ShloMosaic Idealize.ShloMosaic.TcCoe Idealize.SL.Sem Idealize.ShloMosaic.ValueIdx

namespace Cert.Dense.Body

open Cert.KernelIdeal Cert.KernelIdeal.Gen Cert.Dense

/-- Row `p` of half `k` (4096 rows) of the contracted axis. -/
def halfRow (k : Fin 2) (p : Fin 4096) : Fin 8192 :=
  ⟨4096 * k.val + p.val, by have := k.isLt; have := p.isLt; omega⟩

theorem halfRow0_val (p : Fin 4096) : (halfRow 0 p).val = p.val := by
  show 4096 * 0 + p.val = p.val; omega
theorem halfRow1_val (p : Fin 4096) : (halfRow 1 p).val = 4096 + p.val := by
  show 4096 * 1 + p.val = 4096 + p.val; omega

/-- The low and high rows of the two halves are the four runs, in order. -/
theorem half0_low (r : Fin 2048) : halfRow 0 (lowRow r) = runRow 0 r :=
  Fin.ext (by show 4096 * 0 + r.val = 2048 * 0 + r.val; omega)
theorem half0_high (r : Fin 2048) : halfRow 0 (highRow r) = runRow 1 r :=
  Fin.ext (by show 4096 * 0 + (2048 + r.val) = 2048 * 1 + r.val; omega)
theorem half1_low (r : Fin 2048) : halfRow 1 (lowRow r) = runRow 2 r :=
  Fin.ext (by show 4096 * 1 + r.val = 2048 * 2 + r.val; omega)
theorem half1_high (r : Fin 2048) : halfRow 1 (highRow r) = runRow 3 r :=
  Fin.ext (by show 4096 * 1 + (2048 + r.val) = 2048 * 3 + r.val; omega)

/-- Entry (a, q) of what the second point of a column block stores, when its blocks (`xB`, `wB`, `bias`) and
    the first point's (`xA`, `wA`) are the stated parts of arrays X, W, B and the entry sits in column n:
    the dense layer's entry (a, n). -/
theorem column_entry
    (xA xB : Vec Ideal S1x4096 .f32) (wA wB : Vec Ideal S4096x1024 .f32) (bias : Vec Ideal S1x1024 .f32)
    (X : (⟨2, ![1, 8192]⟩ : Shape).Idx → EReal) (W : (⟨2, ![8192, 8192]⟩ : Shape).Idx → EReal)
    (B : (⟨1, ![8192]⟩ : Shape).Idx → EReal) (a : Fin 1) (q : Fin 1024) (n : Fin 8192)
    (hxA : ∀ p : Fin 4096, xA (ix2 a p) = X (ix2 a (halfRow 0 p)))
    (hxB : ∀ p : Fin 4096, xB (ix2 a p) = X (ix2 a (halfRow 1 p)))
    (hwA : ∀ p : Fin 4096, wA (ix2 p q) = W (ix2 (halfRow 0 p) n))
    (hwB : ∀ p : Fin 4096, wB (ix2 p q) = W (ix2 (halfRow 1 p) n))
    (hb : bias (ix2 a q) = B (ix1 n)) :
    k0_pay4 (F := Ideal) (twoRuns xB wB (twoRuns xA wA (k0_pay1 (F := Ideal)))) bias (ix2 a q) = dense X W B (ix2 a n) := by
  rw [bias_apply, twoRuns_apply, twoRuns_apply, zero_apply, dense_runs]
  simp only [hxA, hxB, hwA, hwB, hb, half0_low, half0_high, half1_low, half1_high]

end Cert.Dense.Body

end
-- ==== Proof.DenseBlocks.lean ====
/-
  Where the grid's blocks sit in the arrays.

  Point t of the 8 x 2 grid is (j, k) = (t / 2, t % 2): k walks the two halves of the contracted axis
  inside a fixed block j of output columns.  The point is handed
    * columns 4096 k .. 4096 k + 4095 of x,
    * rows 4096 k .. 4096 k + 4095 and columns 1024 j .. 1024 j + 1023 of W,
    * columns 1024 j .. 1024 j + 1023 of the bias, which the host has reshaped from [8192] to [1, 8192],
  and its output block is columns 1024 j .. 1024 j + 1023 of the result.  The block a window hands over
  is read off its array at  block index * block extent + position inside the block, axis by axis.
-/
import proofs.«134226_j68332929679499_2_alg».proof.Proof.Gen.KernelIdeal.Frame
import Idealize.ShloMosaic.Lib.ValueIdx
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem Idealize.ShloMosaic.ValueIdx

namespace Cert.Dense.Blocks

open Cert.KernelIdeal Cert.KernelIdeal.Gen

variable {F : FTy → Type} [FloatOps F]
variable (m : (ℓ : Loc nD τ sig) → Buf (Elt F) ℓ)

/-- The four windows' block indices at point t = (t / 2, t % 2), decided over the sixteen points. -/
theorem index_facts : ∀ t : Fin cfg0.N,
    win0_0.index t (0 : Fin 2) = 0 ∧ win0_0.index t (1 : Fin 2) = t.val % 2
    ∧ win0_1.index t (0 : Fin 2) = t.val % 2 ∧ win0_1.index t (1 : Fin 2) = t.val / 2
    ∧ win0_2.index t (0 : Fin 2) = 0 ∧ win0_2.index t (1 : Fin 2) = t.val / 2
    ∧ win0_3.index t (0 : Fin 2) = 0 ∧ win0_3.index t (1 : Fin 2) = t.val / 2 :=
  (by decide +kernel : ∀ t : Fin grid0.N, _)

/-- Entry (a, p) of the x block at point t is x[a, 4096 (t % 2) + p]. -/
theorem x_block (c : Dev nD) (t : Fin cfg0.N) (a : Fin 1) (p : Fin 4096) (n : Fin 8192)
    (hn : n.val = 4096 * (t.val % 2) + p.val) :
    (iblk m c 0 t : Vec F S1x4096 .f32) (ix2 a p) = m ((c : Thread nD τ).loc main_arg0) (ix2 a n) := by
  obtain ⟨e0, e1, -⟩ := index_facts t
  unfold iblk
  rw [View.read_apply]
  show V m c main_arg0 _ = _
  rw [V_main_arg0]
  refine congrArg _ (funext fun d => Fin.ext ?_)
  match d with
  | ⟨0, _⟩ => show win0_0.index t (0 : Fin 2) * 1 + 1 * a.val = a.val; rw [e0]; omega
  | ⟨1, _⟩ => show win0_0.index t (1 : Fin 2) * 4096 + 1 * p.val = n.val; rw [e1, hn]; omega

/-- Entry (p, q) of the W block at point t is W[4096 (t % 2) + p, 1024 (t / 2) + q]. -/
theorem w_block (c : Dev nD) (t : Fin cfg0.N) (p : Fin 4096) (q : Fin 1024) (k n : Fin 8192)
    (hk : k.val = 4096 * (t.val % 2) + p.val) (hn : n.val = 1024 * (t.val / 2) + q.val) :
    (iblk m c 1 t : Vec F S4096x1024 .f32) (ix2 p q) = m ((c : Thread nD τ).loc main_arg1) (ix2 k n) := by
  obtain ⟨-, -, e0, e1, -⟩ := index_facts t
  unfold iblk
  rw [View.read_apply]
  show V m c main_arg1 _ = _
  rw [V_main_arg1]
  refine congrArg _ (funext fun d => Fin.ext ?_)
  match d with
  | ⟨0, _⟩ => show win0_1.index t (0 : Fin 2) * 4096 + 1 * p.val = k.val; rw [e0, hk]; omega
  | ⟨1, _⟩ => show win0_1.index t (1 : Fin 2) * 1024 + 1 * q.val = n.val; rw [e1, hn]; omega

/-- What the region finds in the reshaped bias: the host's reshape of b. -/
theorem bias_array (c : Dev nD) :
    (V m c main_v0 : S1x8192.Idx → Elt F .f32) = shapeCast S1x8192 (m ((c : Thread nD τ).loc main_arg2)) shapeCasts_S8192_S1x8192 := by
  dsimp only [Gen.V, Gen.hostOps0]; after_results; rfl

/-- The reshape [8192] -> [1, 8192] only adds a leading axis of extent one: entry (a, n) is b[n]. -/
theorem bias_entry (c : Dev nD) (a : Fin 1) (n : Fin 8192) :
    (V m c main_v0 : S1x8192.Idx → Elt F .f32) (ix2 a n) = m ((c : Thread nD τ).loc main_arg2) (ix1 n) := by
  rw [bias_array]
  exact (shapeCast_addUnit_apply ![8192] (m ((c : Thread nD τ).loc main_arg2)) shapeCasts_S8192_S1x8192 (ix2 a n)).trans
    (congrArg _ (funext fun d => by match d with | ⟨0, _⟩ => rfl))

/-- Entry (a, q) of the bias block at point t is b[1024 (t / 2) + q]. -/
theorem bias_block (c : Dev nD) (t : Fin cfg0.N) (a : Fin 1) (q : Fin 1024) (n : Fin 8192)
    (hn : n.val = 1024 * (t.val / 2) + q.val) :
    (iblk m c 2 t : Vec F S1x1024 .f32) (ix2 a q) = m ((c : Thread nD τ).loc main_arg2) (ix1 n) := by
  obtain ⟨-, -, -, -, e0, e1, -⟩ := index_facts t
  unfold iblk
  rw [View.read_apply]
  show V m c main_v0 _ = _
  refine Eq.trans (congrArg _ (funext fun d => Fin.ext ?_)) (bias_entry m c a n)
  match d with
  | ⟨0, _⟩ => show win0_2.index t (0 : Fin 2) * 1 + 1 * a.val = a.val; rw [e0]; omega
  | ⟨1, _⟩ => show win0_2.index t (1 : Fin 2) * 1024 + 1 * q.val = n.val; rw [e1, hn]; omega

/-- Entry (a, q) of the output block at point t sits at (a, 1024 (t / 2) + q) of the result. -/
theorem out_position (t : Fin cfg0.N) (a : Fin 1) (q : Fin 1024) (n : Fin 8192)
    (hn : n.val = 1024 * (t.val / 2) + q.val) :
    ((cfg0.win 3).blk t).view.emb (ix2 a q) = (ix2 a n : S1x8192.Idx) := by
  obtain ⟨-, -, -, -, -, -, e0, e1⟩ := index_facts t
  refine funext fun d => Fin.ext ?_
  match d with
  | ⟨0, _⟩ => show win0_3.index t (0 : Fin 2) * 1 + 1 * a.val = a.val; rw [e0]; omega
  | ⟨1, _⟩ => show win0_3.index t (1 : Fin 2) * 1024 + 1 * q.val = n.val; rw [e1, hn]; omega

end Cert.Dense.Blocks

end
-- ==== Proof.DenseResult.lean ====
/-
  The kernel's result array is the dense layer of its arguments.

  The output's blocks are written back at the second point (k = 1) of each of the eight column blocks,
  and those eight blocks tile the [1, 8192] result.  What such a point writes back is, entry by entry,
  the dense layer's entry in its column (`column_entry`): its own blocks are the second halves of the rows,
  the point before it (k = 0, the same column block) supplied the first halves starting from zero.
-/
import proofs.«134226_j68332929679499_2_alg».proof.Proof.Gen.KernelIdeal.Value
import proofs.«134226_j68332929679499_2_alg».proof.Proof.DenseColumn
import proofs.«134226_j68332929679499_2_alg».proof.Proof.DenseBlocks

noncomputable section

open Idealize.ShloMosaic Idealize.ShloMosaic.TcCoe Idealize.SL.Sem Idealize.ShloMosaic.ValueIdx
open Idealize.ShloMosaic.Pipeline (Dat)

namespace Cert.Dense.Result

open Cert.KernelIdeal Cert.KernelIdeal.Gen Cert.Dense Cert.Dense.Body Cert.Dense.Blocks

variable (m : (ℓ : Loc nD τ sig) → Buf (Elt Ideal) ℓ) (ρ : Dev nD → PrngReg)

/-- The dense layer of the argument arrays as launched. -/
abbrev result (c : Dev nD) : Buf (Elt Ideal) ((c : Thread nD τ).loc main_v1) :=
  dense (m ((c : Thread nD τ).loc main_arg0)) (m ((c : Thread nD τ).loc main_arg1)) (m ((c : Thread nD τ).loc main_arg2))

/-- After a first point (k = 0) of a column block the running total holds that point's two runs added to
    zero. -/
theorem total_after_first (c : Dev nD) (s : Fin cfg0.N) (h0 : s.val % 2 = 0) (h1 : ¬s.val % 2 = 1) :
    (outsAt0 m c s.val s.isLt).2 = twoRuns (iblk m c 0 s) (iblk m c 1 s) (k0_pay1 (F := Ideal)) :=
by
  rw [outsAt0_A m c s h0 h1]
  dsimp only
  exact total_first (F := Ideal) c (grid0.coords s) (ms0_0 s) (hs0_0 s) (ms0_1 s) (hs0_1 s)
    (ms0_2 s) (hs0_2 s) (ms0_3 s) (hs0_3 s) scM0_0 (Memref.isWhole_whole _)
    ((hcond0_0 s).mpr h0) (fun h => h1 ((hcond0_1 s).mp h))
    (iblk m c 0 s) (iblk m c 1 s) (iblk m c 2 s)

/-- A second point (k = 1) that finds the total `acc` stores, as the output block, its own two runs added to
    `acc`, plus its bias block. -/
theorem stored_at_second (c : Dev nD) (t : Fin cfg0.N) (h0 : ¬t.val % 2 = 0) (h1 : t.val % 2 = 1) (acc : Vec Ideal S1x1024 .f32) :
    out0_B_3 c (grid0.coords t) (ms0_0 t) (hs0_0 t) (ms0_1 t) (hs0_1 t) (ms0_2 t) (hs0_2 t) (ms0_3 t) (hs0_3 t)
        scM0_0 (Memref.isWhole_whole _) (fun h => h0 ((hcond0_0 t).mp h)) ((hcond0_1 t).mpr h1)
        (iblk m c 0 t) (iblk m c 1 t) (iblk m c 2 t) acc
      = k0_pay4 (F := Ideal) (twoRuns (iblk m c 0 t) (iblk m c 1 t) acc) (iblk m c 2 t) :=
  out_last (F := Ideal) c (grid0.coords t) (ms0_0 t) (hs0_0 t) (ms0_1 t) (hs0_1 t) (ms0_2 t) (hs0_2 t) (ms0_3 t) (hs0_3 t)
    scM0_0 (Memref.isWhole_whole _) (fun h => h0 ((hcond0_0 t).mp h)) ((hcond0_1 t).mpr h1)
    (iblk m c 0 t) (iblk m c 1 t) (iblk m c 2 t) acc

/-- What a write-back of the output writes is that block of the dense layer. -/
theorem flushed_eq (c : Dev nD) (t : Fin cfg0.N) (hf : (cfg0.win 3).flush t = true) :
    (dats m 0 c).flushed 3 t = ((cfg0.win 3).blk t).view.read (Elt Ideal) (result m c) := by
  have hN : cfg0.N = 16 := N_0
  have ht := t.isLt
  have h1 : t.val % 2 = 1 := (flush0_3 t).mp hf
  have h0 : ¬t.val % 2 = 0 := by omega
  have hlt : t.val - 1 < cfg0.N := Nat.lt_of_le_of_lt (Nat.sub_le _ _) t.isLt
  -- a write-back happens at a second point; the point before it is the first point of the same column block
  have h0' : (t.val - 1) % 2 = 0 := by omega
  have h1' : ¬(t.val - 1) % 2 = 1 := by omega
  rw [Value.flushed3_B m c t h0 h1, stored_at_second m c t h0 h1,
    total_after_first m c ⟨t.val - 1, hlt⟩ h0' h1']
  funext y
  obtain ⟨a, q, rfl⟩ : ∃ (a : Fin 1) (q : Fin 1024), y = ix2 a q := ⟨y 0, y 1, eq_ix2 y⟩
  have hq := q.isLt
  obtain ⟨n, hn⟩ : ∃ n : Fin 8192, n.val = 1024 * (t.val / 2) + q.val := ⟨⟨1024 * (t.val / 2) + q.val, by omega⟩, rfl⟩
  show k0_pay4 (F := Ideal) _ _ (ix2 a q) = result m c (((cfg0.win 3).blk t).view.emb (ix2 a q))
  rw [out_position t a q n hn]
  exact column_entry (iblk m c 0 ⟨t.val - 1, hlt⟩) (iblk m c 0 t) (iblk m c 1 ⟨t.val - 1, hlt⟩) (iblk m c 1 t) (iblk m c 2 t)
    (m ((c : Thread nD τ).loc main_arg0)) (m ((c : Thread nD τ).loc main_arg1)) (m ((c : Thread nD τ).loc main_arg2)) a q n
    (fun p => x_block m c ⟨t.val - 1, hlt⟩ a p (halfRow 0 p) (by rw [halfRow0_val]; show p.val = 4096 * ((t.val - 1) % 2) + p.val; omega))
    (fun p => x_block m c t a p (halfRow 1 p) (by rw [halfRow1_val]; omega))
    (fun p => w_block m c ⟨t.val - 1, hlt⟩ p q (halfRow 0 p) n
      (by rw [halfRow0_val]; show p.val = 4096 * ((t.val - 1) % 2) + p.val; omega)
      (by rw [hn]; show 1024 * (t.val / 2) + q.val = 1024 * ((t.val - 1) / 2) + q.val; omega))
    (fun p => w_block m c t p q (halfRow 1 p) n (by rw [halfRow1_val]; omega) hn)
    (bias_block m c t a q n hn)

/-- Every column of the result lies in the block written back at the second point of its column block. -/
theorem cover (i : S1x8192.Idx) : ∃ t : Fin cfg0.N, (cfg0.win 3).flush t = true ∧ i ∈ ((cfg0.win 3).blk t).view.set := by
  have hN : cfg0.N = 16 := N_0
  have h0 : (i 0).val < 1 := (i 0).isLt
  have h1 : (i 1).val < 8192 := (i 1).isLt
  obtain ⟨t, ht⟩ : ∃ t : Fin cfg0.N, t.val = 2 * ((i 1).val / 1024) + 1 := ⟨⟨2 * ((i 1).val / 1024) + 1, by rw [hN]; omega⟩, rfl⟩
  obtain ⟨-, -, -, -, -, -, e0, e1⟩ := index_facts t
  refine ⟨t, (flush0_3 t).mpr (by omega), ?_⟩
  show i ∈ ((View.whole main_v1).slice (win0_3.rect t)).set
  rw [View.set_slice_whole, Rect.mem_set_unit]
  intro d
  match d with
  | ⟨0, _⟩ =>
    show win0_3.index t (0 : Fin 2) * 1 ≤ (i 0).val ∧ (i 0).val < win0_3.index t (0 : Fin 2) * 1 + 1
    rw [e0]; omega
  | ⟨1, _⟩ =>
    show win0_3.index t (1 : Fin 2) * 1024 ≤ (i 1).val ∧ (i 1).val < win0_3.index t (1 : Fin 2) * 1024 + 1024
    rw [e1]; omega

/-- So the result array ends holding the dense layer of the arguments. -/
theorem final (c : Dev nD) : (dats m 0 c).arrAt 3 cfg0.N = result m c :=
  (dats m 0 c).arrAt_eq_of_cover 3 (result m c) (flushed_eq m c) cover

/-- The kernel's run: it terminates with the result array at the dense layer of the arguments, which end
    unchanged. -/
theorem run : θ_run defs (onTc (τ := τ) (main (F := Ideal))) ⟨m, fun _ => 0, ρ⟩ fun r => ∀ c : Dev nD,
      r.2.mem ((c : Thread nD τ).loc main_v1) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.Dense.Result

end
-- ==== Proof.DenseReference.lean ====
/-
  The reference computes the dense layer.

  Its three host operations are a matrix product of x [1, 8192] with W [8192, 8192] contracting the
  8192 rows, a broadcast of b [8192] along a new leading axis, and an addition.  Over the extended
  reals the product's entry (0, n) is the sum over r of x[0, r] * W[r, n], the broadcast's entry is
  b[n], so entry by entry the result is `dense x W b`.
-/
import proofs.«134226_j68332929679499_2_alg».proof.Proof.Gen.ReferenceIdeal.Read
import proofs.«134226_j68332929679499_2_alg».proof.Proof.DenseSpec

noncomputable section

open scoped BigOperators
open Idealize.ShloMosaic Idealize.ShloMosaic.TcCoe Idealize.SL.Sem Idealize.ShloMosaic.ValueIdx

namespace Cert.Dense.Reference

open Cert.ReferenceIdeal Cert.ReferenceIdeal.Gen Cert.ReferenceIdeal.Read Cert.Dense

/-- The reference's result, as a function of its three arguments, is the dense layer. -/
theorem result_eq (x : (⟨S1x8192, .f32⟩ : BufTy).Contents (Elt Ideal)) (W : (⟨S8192x8192, .f32⟩ : BufTy).Contents (Elt Ideal))
    (b : (⟨S8192, .f32⟩ : BufTy).Contents (Elt Ideal)) :
    val_main_v2 (F := Ideal) x W b = dense x W b := by
  funext i
  have el : ∀ k : Fin 8192, lidx_main_v0 i k = ix2 (i 0) k := fun k => funext fun d => Fin.ext (by
    match d with | ⟨0, _⟩ => rfl | ⟨1, _⟩ => rfl)
  have er : ∀ k : Fin 8192, ridx_main_v0 i k = ix2 k (i 1) := fun k => funext fun d => Fin.ext (by
    match d with | ⟨0, _⟩ => rfl | ⟨1, _⟩ => rfl)
  have eb : idx_main_v1 i = ix1 (i 1) := funext fun d => Fin.ext (by
    match d with | ⟨0, _⟩ => rfl)
  rw [val_main_v2_apply, val_main_v0_apply, val_main_v1_apply]
  simp only [el, er, eb]
  rfl

end Cert.Dense.Reference

end
-- ==== Proof.lean ====
/-
  A dense layer  out = x W + b  (x [1, 8192], W [8192, 8192], b [8192]) computed by a blocked kernel,
  against the plain  x @ W + b.

  The kernel tiles the 8192 output columns into eight blocks of 1024 and, for each, walks the 8192
  contracted rows in two grid steps of 4096, each step adding two partial products of 2048 rows to a
  running total that starts at zero; after the second step it adds the bias block and writes the block
  out.  Its operands are rounded to a narrower float format before each product.

  Over the extended reals a change of float format is the identity, a product into a zero accumulator
  is the plain sum of products, and addition is associative and commutative, so the running total after
  the four runs is the whole sum over the 8192 rows (`Cert.Dense.sum_runs`).  Hence both programs end with
  entry (0, n) at  (sum over r of x[0, r] * W[r, n]) + b[n]  (`Cert.Dense.dense`): the kernel by
  `Cert.Dense.Result.run`, the reference by its run and `Cert.Dense.Reference.result_eq`.  No product is moved
  across a sum and nothing is cancelled, so the finiteness of the inputs is never used.

  The three frames are the programs' runs with the values forgotten; the idealized kernel is the
  kernel's own text read over the extended reals, so there is nothing to preserve.
-/
import proofs.«134226_j68332929679499_2_alg».proof.Defs
import proofs.«134226_j68332929679499_2_alg».proof.Proof.Gen.Kernel
import proofs.«134226_j68332929679499_2_alg».proof.Proof.Gen.Kernel.Frame
import proofs.«134226_j68332929679499_2_alg».proof.Proof.Gen.KernelIdeal
import proofs.«134226_j68332929679499_2_alg».proof.Proof.Gen.KernelIdeal.Frame
import proofs.«134226_j68332929679499_2_alg».proof.Proof.Gen.KernelIdeal.Value
import proofs.«134226_j68332929679499_2_alg».proof.Proof.Gen.ReferenceIdeal
import proofs.«134226_j68332929679499_2_alg».proof.Proof.Gen.ReferenceIdeal.Run
import proofs.«134226_j68332929679499_2_alg».proof.Proof.Gen.ReferenceIdeal.Read
import proofs.«134226_j68332929679499_2_alg».proof.Proof.Gen.Pre_finite_inputs
import proofs.«134226_j68332929679499_2_alg».proof.Proof.DenseResult
import proofs.«134226_j68332929679499_2_alg».proof.Proof.DenseReference
import Idealize.ShloMosaic.Adequacy
import Idealize.ShloMosaic.Init

noncomputable section

namespace Cert.Proof

open Idealize.ShloMosaic Idealize.SL.Sem

/-- The kernel as printed runs to the end without a fault and leaves its arguments as they were. -/
theorem frame_kernel : @Cert.frame_Kernel Cert.Kernel.Gen.facts Cert.Pre_finite_inputs.Gen.facts :=
  fun m ρ _ => Cert.Kernel.Gen.frame m ρ

/-- So does the kernel read over the extended reals. -/
theorem frame_kernel_ideal : @Cert.frame_KernelIdeal Cert.KernelIdeal.Gen.facts Cert.Pre_finite_inputs.Gen.facts :=
  fun m ρ _ => Cert.KernelIdeal.Gen.frame m ρ

/-- The reference's three host operations run to the end and leave the arguments as they were. -/
theorem frame_reference : @Cert.frame_ReferenceIdeal Cert.ReferenceIdeal.Gen.facts Cert.Pre_finite_inputs.Gen.facts :=
  fun m ρ _ =>
    (θ_run Cert.ReferenceIdeal.defs _ _).mono (fun _ h c => (h c).2) (Cert.ReferenceIdeal.Value.run (F := Ideal) m ρ)

/-- From memories that agree on x, W and b both programs end with the dense layer of those arrays. -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨fun c => Cert.Dense.Result.result m c, Cert.Dense.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v2_eq, Cert.Dense.Reference.result_eq, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
